-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x768x768 : Shape := ⟨4, ![64, 1, 768, 768]⟩
abbrev S_ : Shape := ⟨0, ![]⟩

class Facts : Prop where
  bcast_S_S64x1x768x768 : S_.BroadcastsInDim S64x1x768x768 (![] : Fin 0 → Fin S64x1x768x768.rank)
  reducesTo_S64x1x768x768_S_d0_1_2_3 : S64x1x768x768.ReducesTo [0, 1, 2, 3] S_
  h_S_ : 0 < S_.numel

variable [Facts]

def fn {F : FTy → Type} [FloatOps F] (main_arg0 : FVec F S64x1x768x768 .f32) : IVec S_ 1 :=
  let main_v0 : FVec F S64x1x768x768 .f32 := Host.absf main_arg0
  let main_cst : FVec F S_ .f32 := constant S_ .f32 0x7F800000#32
  let main_v1 : FVec F S64x1x768x768 .f32 := broadcastInDim S64x1x768x768 ![] bcast_S_S64x1x768x768 main_cst
  let main_v2 : IVec S64x1x768x768 1 := cmpf .olt main_v0 main_v1
  let main_c : IVec S_ 1 := constantI S_ 1 1#1
  let main_v3 : IVec S_ 1 := (fun x v => Host.reduce IntOp.andi x v reducesTo_S64x1x768x768_S_d0_1_2_3 h_S_) main_v2 main_c
  main_v3
-- ==== Kernel.lean ====
abbrev S64x1x768x768 : Shape := ⟨4, ![64, 1, 768, 768]⟩
abbrev S2x8x128 : Shape := ⟨3, ![2, 8, 128]⟩
abbrev S2x1x768x768 : Shape := ⟨4, ![2, 1, 768, 768]⟩
abbrev S1x8x128 : Shape := ⟨3, ![1, 8, 128]⟩
abbrev S2x1x766x766 : Shape := ⟨4, ![2, 1, 766, 766]⟩
abbrev S2x1x766 : Shape := ⟨3, ![2, 1, 766]⟩
abbrev S2x1x766x1 : Shape := ⟨4, ![2, 1, 766, 1]⟩
abbrev S2x1x1 : Shape := ⟨3, ![2, 1, 1]⟩
abbrev S2x1x1x1 : Shape := ⟨4, ![2, 1, 1, 1]⟩
abbrev S1x1x1 : Shape := ⟨3, ![1, 1, 1]⟩
abbrev S_ : Shape := ⟨0, ![]⟩

abbrev nBuf : Space → Nat
  | .hbm => 8
  | .vmem => 4
  | .smem => 0
  | _ => 0

abbrev bufTy : (tb : Table) → Fin (tcTables nBuf tb) → BufTy
  | .hbm, ⟨0, _⟩ => ⟨S64x1x768x768, .f32⟩
  | .hbm, ⟨1, _⟩ => ⟨S2x8x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2x1x768x768, .f32⟩
  | .local _ .vmem, ⟨1, _⟩ => ⟨S2x1x768x768, .f32⟩
  | .local _ .vmem, ⟨2, _⟩ => ⟨S1x8x128, .f32⟩
  | .local _ .vmem, ⟨3, _⟩ => ⟨S1x8x128, .f32⟩
  | _, _ => ⟨S64x1x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S2x1x768x768_S2x1x768x768_0_0_0_0 : ∀ a, (![0, 0, 0, 0] : Fin 4 → Nat) a + S2x1x768x768.size a ≤ S2x1x768x768.size a
  h_S2x1x768x768 : 0 < S2x1x768x768.numel
  slices_S2x1x768x768_o0_0_1_2_S2x1x766x766 : S2x1x768x768.Slices ![0, 0, 1, 2] S2x1x766x766
  slices_S2x1x768x768_o0_0_1_0_S2x1x766x766 : S2x1x768x768.Slices ![0, 0, 1, 0] S2x1x766x766
  slices_S2x1x768x768_o0_0_2_1_S2x1x766x766 : S2x1x768x768.Slices ![0, 0, 2, 1] S2x1x766x766
  slices_S2x1x768x768_o0_0_0_1_S2x1x766x766 : S2x1x768x768.Slices ![0, 0, 0, 1] S2x1x766x766
  reduces_S2x1x766x766_S2x1x766 : S2x1x766x766.Reduces [3] S2x1x766
  shapeCasts_S2x1x766_S2x1x766x1 : S2x1x766.ShapeCasts S2x1x766x1
  reduces_S2x1x766x1_S2x1x1 : S2x1x766x1.Reduces [2] S2x1x1
  shapeCasts_S2x1x1_S2x1x1x1 : S2x1x1.ShapeCasts S2x1x1x1
  reduces_S2x1x1x1_S1x1x1 : S2x1x1x1.Reduces [0] S1x1x1
  shapeCasts_S1x1x1_S1x1x1 : S1x1x1.ShapeCasts S1x1x1
  broadcasts_S1x1x1_S1x8x128 : S1x1x1.Broadcasts S1x8x128
  shapeCasts_S1x8x128_S1x8x128 : S1x8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x768x768.size a ≤ S64x1x768x768.size a
  hwx0_0 : ∀ i : grid0.Coords, EltTy.bits .f32 = 32 ∨ (Rect.block (s := S64x1x768x768) S2x1x768x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)

variable [Facts₀]

abbrev win0_0 : Pipeline.Window sig grid0 :=
  Pipeline.Window.ofSpec (Memref.whole main_arg0) S2x1x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1x768x768 : Shape := ⟨4, ![64, 1, 768, 768]⟩
abbrev S64x1x766x766 : Shape := ⟨4, ![64, 1, 766, 766]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S64x1x768x768, .f32⟩
  | .hbm, ⟨1, _⟩ => ⟨S64x1x766x766, .f32⟩
  | .hbm, ⟨2, _⟩ => ⟨S64x1x766x766, .f32⟩
  | .hbm, ⟨3, _⟩ => ⟨S64x1x766x766, .f32⟩
  | .hbm, ⟨4, _⟩ => ⟨S64x1x766x766, .f32⟩
  | .hbm, ⟨5, _⟩ => ⟨S_, .f32⟩
  | .hbm, ⟨6, _⟩ => ⟨S64x1x766x766, .f32⟩
  | .hbm, ⟨7, _⟩ => ⟨S64x1x766x766, .f32⟩
  | .hbm, ⟨8, _⟩ => ⟨S64x1x766x766, .f32⟩
  | .hbm, ⟨9, _⟩ => ⟨S64x1x766x766, .f32⟩
  | .hbm, ⟨10, _⟩ => ⟨S64x1x766x766, .f32⟩
  | .hbm, ⟨11, _⟩ => ⟨S_, .f32⟩
  | .hbm, ⟨12, _⟩ => ⟨S64x1x766x766, .f32⟩
  | .hbm, ⟨13, _⟩ => ⟨S64x1x766x766, .f32⟩
  | .hbm, ⟨14, _⟩ => ⟨S64x1x766x766, .f32⟩
  | .hbm, ⟨15, _⟩ => ⟨S64x1x766x766, .f32⟩
  | .hbm, ⟨16, _⟩ => ⟨S64x1x766x766, .f32⟩
  | .hbm, ⟨17, _⟩ => ⟨S_, .f32⟩
  | .hbm, ⟨18, _⟩ => ⟨S64x1x766x766, .f32⟩
  | .hbm, ⟨19, _⟩ => ⟨S64x1x766x766, .f32⟩
  | .hbm, ⟨20, _⟩ => ⟨S64x1x766x766, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S64x1x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_cst_3 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S64x1x768x768_S64x1x766x766_0_0_1_1 : S64x1x768x768.Slices ![0, 0, 1, 1] S64x1x766x766
  slices_S64x1x768x768_S64x1x766x766_0_0_1_2 : S64x1x768x768.Slices ![0, 0, 1, 2] S64x1x766x766
  slices_S64x1x768x768_S64x1x766x766_0_0_1_0 : S64x1x768x768.Slices ![0, 0, 1, 0] S64x1x766x766
  bcast_S_S64x1x766x766 : S_.BroadcastsInDim S64x1x766x766 (![] : Fin 0 → Fin S64x1x766x766.rank)
  slices_S64x1x768x768_S64x1x766x766_0_0_2_1 : S64x1x768x768.Slices ![0, 0, 2, 1] S64x1x766x766
  slices_S64x1x768x768_S64x1x766x766_0_0_0_1 : S64x1x768x768.Slices ![0, 0, 0, 1] S64x1x766x766
  reducesTo_S64x1x766x766_S_d0_1_2_3 : S64x1x766x766.ReducesTo [0, 1, 2, 3] S_
  h_S_ : 0 < S_.numel

variable [Facts₀]

class Facts : Prop extends Facts₀ where

variable [Facts]
-- ==== Proof.Pieces.lean ====
/-
  What one grid step leaves in the output block, as a value.

  The body of the kernel, at every grid point, reads the whole input block `x` (two images of 768 × 768)
  and the whole 1 × 8 × 128 output block, and stores ONE value over the whole output block:
  `step x acc` (the generated payload `k0_pay2`), where `acc` is what the output block held when it was read.
  At the first step of a reduction run (the second grid coordinate is 0) the body first stores the zero block
  (`k0_pay1`) and the read that follows sees those zeros; at every other step the read sees what the step
  before left.  So the two control cases of the body leave

      first step of a run :  step x 0
      any later step      :  step x (what the step before left).
-/
import proofs.«115705_j82695300317218_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- A later step of a run: the output block, holding `acc`, ends holding `step x acc` — the one store covers the
    block, and both loads read whole buffers. -/
theorem later_step (c : Dev nD) (i : grid0.Coords) (a2 : Memref sig .tc .vmem S2x1x768x768 .f32) (h2 : a2.IsWhole)
    (a3 : Memref sig .tc .vmem S1x8x128 .f32) (h3 : a3.IsWhole) (hc : ¬cond0_0 i)
    (x : Vec F S2x1x768x768 .f32) (acc : Vec F S1x8x128 .f32) :
    out0_B_1 c i a2 h2 a3 h3 hc x acc = k0_pay2 x acc := by
  unfold out0_B_1
  rw [View.read_writes_eq_canon _ _ _ (cover0_B_1 c i a2 h2 a3 h3 hc x acc)]
  unfold kernelRun0_B
  dsimp only
  rw [View.canon_unit_zero zero3]
  simp only [View.readAt_eq_ld, h2.read_unread, h3.read_unread, View.ld_unit_zero (S := S2x1x768x768) zero4,
    View.ld_unit_zero (S := S1x8x128) zero3]

/-- The first step of a run: the zero block is stored first, the read after it sees the zeros, and the block ends
    holding `step x 0`. -/
theorem first_step (c : Dev nD) (i : grid0.Coords) (a2 : Memref sig .tc .vmem S2x1x768x768 .f32) (h2 : a2.IsWhole)
    (a3 : Memref sig .tc .vmem S1x8x128 .f32) (h3 : a3.IsWhole) (hc : cond0_0 i)
    (x : Vec F S2x1x768x768 .f32) :
    out0_A_1 c i a2 h2 a3 h3 hc x = k0_pay2 x k0_pay1 := by
  unfold out0_A_1
  rw [View.read_writes_eq_canon _ _ _ (cover0_A_1 c i a2 h2 a3 h3 hc x)]
  unfold kernelRun0_A
  dsimp only
  sl_unfold_words
  rw [View.canon_cons_unit_zero (S := S1x8x128) zero3, View.readCov_unit_zero (S := S1x8x128) _ zero3]
  simp only [View.readAt_eq_ld, h2.read_unread, View.ld_unit_zero (S := S2x1x768x768) zero4]

end Cert.KernelIdeal.Pieces

end
-- ==== Proof.Consts.lean ====
/-
  The one float literal of the kernel that the reference does not have: 0x3A800000 is 2⁻¹⁰ = 1/1024 exactly
  (sign 0, exponent field 117 = 127 − 10, fraction 0).  The kernel multiplies each block's total by it before
  spreading the product over the 8 × 128 = 1024 entries of its output block.
-/
import Idealize.ShloMosaic.PureOps.Ideal

noncomputable section

namespace Cert.Consts

open Idealize.ShloMosaic

/-- The pattern 0x3A800000 denotes the real number 1/1024. -/
theorem ofBits_inv1024 : Ideal.ofBits .f32 0x3A800000#32 = ((1 / 1024 : ℝ) : EReal) := by
  simp [Ideal.ofBits, Ideal.ieee, -EReal.coe_mul]; norm_num

end Cert.Consts

end
-- ==== Proof.LibTotals.lean ====
/-
  Totals are insensitive to layout, at the ideal instance.

  Two general facts about the sum of ALL entries of a vector over the extended reals (or any commutative
  additive monoid):

    * a shape cast only re-indexes the entries (row-major position is kept), so the total is unchanged;
    * an additive reduction over any set of axes leaves, at each reduced index, the sum of the entries that
      reduce to it; the reduced indices partition the source indices, so the total of the reduced vector is the
      total of the source.

  With them a chain "reduce the lanes, cast, reduce the sublanes, cast, reduce the batch" collapses to the one
  total of its source without naming a single coordinate.

  And a rank-3 index set is the product of its three coordinate ranges, so a total over it is a triple sum over
  the coordinates (the rank-2 form is the library's).
-/
import Idealize.ShloMosaic.PureOps.Ideal.Laws
import Idealize.ShloMosaic.Lib.ValueIdx

open scoped BigOperators

namespace Idealize.ShloMosaic.LibTotals

open Idealize.ShloMosaic

/-- The total of a shape cast is the total of its operand: the cast reads the operand through a bijection of the
    two index sets. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- The total of an additive `vector.multi_reduction`, read at the ideal instance, is the total of its source:
    each reduced entry is the sum over the fibre of source indices that drop to it, and the fibres partition
    the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.LibTotals
-- ==== Proof.Payload.lean ====
/-
  One grid step, as arithmetic on the extended reals.

  The block the step reads holds two images `x[u, 0, ·, ·]` (u = 0, 1) of 768 × 768.  At every interior position
  (r, c), 0 ≤ r, c < 766, the body forms the two central differences

      dx = (x[u,0,r+1,c+2] − x[u,0,r+1,c]) · κ        dy = (x[u,0,r+2,c+1] − x[u,0,r,c+1]) · κ

  and the magnitude `mag x (u,0,r,c) = √(dx·dx + dy·dy + ε)`.  It then adds the magnitudes up — over the lanes,
  then over the sublanes, then over the two images, each time from 0 — multiplies the total by the literal
  2⁻¹⁰ and adds that one number to every one of the 8 × 128 entries of the output block:

      step x acc (y) = acc(y) + (Σ_j mag x j) · (1/1024).

  The three partial reductions and the two casts between them are only a way of forming the total
  (LibTotals), and the zero block of the reset step is 0 at every entry.
-/
import proofs.«115705_j82695300317218_1_alg».proof.Proof.Gen.KernelIdeal.Skeleton
import proofs.«115705_j82695300317218_1_alg».proof.Proof.Consts
import proofs.«115705_j82695300317218_1_alg».proof.Proof.LibTotals
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx Idealize.ShloMosaic.LibTotals

namespace Cert.KernelIdeal.Payload

open Cert.KernelIdeal Cert.KernelIdeal.Gen

/-- The gradient magnitude at every interior position of a block of two images. -/
def mag (v3 : Vec Ideal S2x1x768x768 .f32) : FVec Ideal S2x1x766x766 .f32 :=
  have v4 : FVec Ideal S2x1x766x766 .f32 := extractStridedSlice S2x1x766x766 ![0, 0, 1, 2] v3 slices_S2x1x768x768_o0_0_1_2_S2x1x766x766
  have v5 : FVec Ideal S2x1x766x766 .f32 := extractStridedSlice S2x1x766x766 ![0, 0, 1, 0] v3 slices_S2x1x768x768_o0_0_1_0_S2x1x766x766
  have v6 : FVec Ideal S2x1x766x766 .f32 := subf v4 v5
  have cst : Ideal .f32 := Scalar.ofBits .f32 0x4103CBB4#32
  have v7 : FVec Ideal S2x1x766x766 .f32 := broadcast S2x1x766x766 cst
  have v8 : FVec Ideal S2x1x766x766 .f32 := mulf v6 v7
  have v9 : FVec Ideal S2x1x766x766 .f32 := extractStridedSlice S2x1x766x766 ![0, 0, 2, 1] v3 slices_S2x1x768x768_o0_0_2_1_S2x1x766x766
  have v10 : FVec Ideal S2x1x766x766 .f32 := extractStridedSlice S2x1x766x766 ![0, 0, 0, 1] v3 slices_S2x1x768x768_o0_0_0_1_S2x1x766x766
  have v11 : FVec Ideal S2x1x766x766 .f32 := subf v9 v10
  have cst_4 : Ideal .f32 := Scalar.ofBits .f32 0x4103CBB4#32
  have v12 : FVec Ideal S2x1x766x766 .f32 := broadcast S2x1x766x766 cst_4
  have v13 : FVec Ideal S2x1x766x766 .f32 := mulf v11 v12
  have v14 : FVec Ideal S2x1x766x766 .f32 := mulf v8 v8
  have v15 : FVec Ideal S2x1x766x766 .f32 := mulf v13 v13
  have v16 : FVec Ideal S2x1x766x766 .f32 := addf v14 v15
  have cst_5 : Ideal .f32 := Scalar.ofBits .f32 0x322BCC77#32
  have v17 : FVec Ideal S2x1x766x766 .f32 := broadcast S2x1x766x766 cst_5
  have v18 : FVec Ideal S2x1x766x766 .f32 := addf v16 v17
  sqrt v18

/-- The zero block of the reset step is 0 at every entry. -/
theorem reset_apply (y : S1x8x128.Idx) : k0_pay1 (F := Ideal) y = 0 := Ideal.ofBits_zero_f32

/-- One step at an entry: what the block held there, plus the block's total magnitude over 1024. -/
theorem step_apply (x : Vec Ideal S2x1x768x768 .f32) (acc : Vec Ideal S1x8x128 .f32) (y : S1x8x128.Idx) :
    k0_pay2 (F := Ideal) x acc y = acc y + (∑ j : S2x1x766x766.Idx, mag x j) * ((1 / 1024 : ℝ) : EReal) := by
  unfold k0_pay2
  refine (addf_apply _ _ y).trans ?_
  refine congrArg₂ (· + ·) (congrFun (shapeCast_self acc _) y) ?_
  refine (broadcastTo_apply _ _ y (ix3 0 0 0) (fun a => by fin_cases a <;> rfl)).trans ?_
  refine (congrFun (shapeCast_self _ _) _).trans ?_
  refine (mulf_apply _ _ _).trans ?_
  refine congrArg₂ (· * ·) ?_ Cert.Consts.ofBits_inv1024
  refine (Ideal.multiReduction_add_total _ _ _ (fun b => by fin_cases b <;> rfl) _ _ _).trans ?_
  refine (sum_shapeCast _ _).trans ?_
  refine (sum_multiReduction_add _ _ _ _ _).trans ?_
  refine (sum_shapeCast _ _).trans ?_
  refine (sum_multiReduction_add _ _ _ _ _).trans ?_
  rfl

end Cert.KernelIdeal.Payload

end
-- ==== Proof.Accum.lean ====
/-
  What the output block holds when it is written back.

  The grid has 32 points, numbered t = 16·p + r (p = 0, 1 the half of the batch, r = 0 … 15 the step inside the
  half).  The output block of half p is reset at r = 0, receives one step at every point of the run and is written
  back after r = 15.  By the two case lemmas (Pieces) and the step's arithmetic (Payload) the block is, at every
  entry, the fold

      0 + total(16p)/1024 + total(16p + 1)/1024 + … + total(16p + 15)/1024,

  where total(n) is the sum of the gradient magnitudes over the input block of point n.  The induction over the
  run is the library's (a quantity that resets at the multiples of 16 and steps from its predecessor elsewhere).
-/
import proofs.«115705_j82695300317218_1_alg».proof.Proof.Pieces
import proofs.«115705_j82695300317218_1_alg».proof.Proof.Payload
import Idealize.ShloMosaic.Lib.Pipeline.Value

noncomputable section

open scoped BigOperators
open Idealize.ShloMosaic Idealize.ShloMosaic.TcCoe Idealize.SL.Sem

namespace Cert.KernelIdeal.Accum

open Cert.KernelIdeal Cert.KernelIdeal.Gen

variable (m : (ℓ : Loc nD τ sig) → Buf (Elt Ideal) ℓ)

/-- The total gradient magnitude of the input block of grid point `n` (0 past the grid, where it is never used). -/
def total (c : Dev nD) (n : ℕ) : EReal :=
  if h : n < cfg0.N then ∑ j : S2x1x766x766.Idx, Payload.mag (iblk m c 0 ⟨n, h⟩) j else 0

theorem total_of_lt (c : Dev nD) (n : ℕ) (h : n < cfg0.N) :
    total m c n = ∑ j : S2x1x766x766.Idx, Payload.mag (iblk m c 0 ⟨n, h⟩) j := dif_pos h

/-- The share every entry of the output block receives at point `n`. -/
def share (c : Dev nD) (n : ℕ) : S1x8x128.Idx → EReal := fun _ => total m c n * ((1 / 1024 : ℝ) : EReal)

/-- What a reset step leaves: one step from the zero block. -/
def resetVal (c : Dev nD) (n : ℕ) (h : n < cfg0.N) : S1x8x128.Idx → EReal :=
  k0_pay2 (F := Ideal) (iblk m c 0 ⟨n, h⟩) (k0_pay1 (F := Ideal))

/-- What a later step leaves over what the step before left. -/
def stepVal (c : Dev nD) (n : ℕ) (h : n < cfg0.N) (acc : S1x8x128.Idx → EReal) : S1x8x128.Idx → EReal :=
  k0_pay2 (F := Ideal) (iblk m c 0 ⟨n, h⟩) acc

/-- The first point of a run resets. -/
theorem at_reset (c : Dev nD) (n : ℕ) (h : n < cfg0.N) (h0 : n % 16 = 0) : outsAt0 m c n h = resetVal m c n h :=
  (outsAt0_A m c ⟨n, h⟩ h0).trans
    (Pieces.first_step (F := Ideal) c (grid0.coords ⟨n, h⟩) (ms0_0 ⟨n, h⟩) (hs0_0 ⟨n, h⟩) (ms0_1 ⟨n, h⟩) (hs0_1 ⟨n, h⟩)
      ((hcond0_0 ⟨n, h⟩).mpr h0) (iblk m c 0 ⟨n, h⟩))

/-- Every other point steps from what the point before left. -/
theorem at_step (c : Dev nD) (n : ℕ) (h : n + 1 < cfg0.N) (hne : ¬(n + 1) % 16 = 0) :
    outsAt0 m c (n + 1) h = stepVal m c (n + 1) h (outsAt0 m c n (Nat.lt_of_succ_lt h)) :=
  (outsAt0_B m c ⟨n + 1, h⟩ hne).trans
    (Pieces.later_step (F := Ideal) c (grid0.coords ⟨n + 1, h⟩) (ms0_0 ⟨n + 1, h⟩) (hs0_0 ⟨n + 1, h⟩) (ms0_1 ⟨n + 1, h⟩)
      (hs0_1 ⟨n + 1, h⟩) (fun h' => hne ((hcond0_0 ⟨n + 1, h⟩).mp h')) (iblk m c 0 ⟨n + 1, h⟩)
      (outsAt0 m c n (Nat.lt_of_succ_lt h)))

/-- A reset step at an entry: 0 plus the point's share. -/
theorem resetVal_apply (c : Dev nD) (n : ℕ) (h : n < cfg0.N) (y : S1x8x128.Idx) :
    resetVal m c n h y = 0 + share m c n y := by
  unfold resetVal share
  rw [Payload.step_apply, Payload.reset_apply, total_of_lt m c n h]

/-- A later step at an entry: what was there plus the point's share. -/
theorem stepVal_apply (c : Dev nD) (n : ℕ) (h : n < cfg0.N) (acc : S1x8x128.Idx → EReal) (y : S1x8x128.Idx) :
    stepVal m c n h acc y = acc y + share m c n y := by
  unfold stepVal share
  rw [Payload.step_apply, total_of_lt m c n h]

/-- At a point that writes the block back (the last of its run) every entry of the block is 0 plus the sixteen
    shares of the run. -/
theorem block_at_flush (c : Dev nD) (t : Fin cfg0.N) (ht : t.val % 16 = 15) (y : S1x8x128.Idx) :
    outsAt0 m c t.val t.isLt y
      = 0 + ∑ s ∈ Finset.range 16, total m c (16 * (t.val / 16) + s) * ((1 / 1024 : ℝ) : EReal) := by
  have h' : 16 * (t.val / 16) + t.val % 16 < cfg0.N := by rw [Nat.div_add_mod]; exact t.isLt
  rw [Pipeline.eq_accAt_of_mod (outsAt0 m c) 16 (resetVal m c) (stepVal m c) (at_reset m c) (at_step m c)
    (by norm_num) t.val t.isLt h']
  rw [Pipeline.accAt_add_apply (β := EReal) (resetVal m c) (stepVal m c) (fun _ => (0 : EReal)) (share m c)
    (16 * (t.val / 16)) 15 (fun h i => resetVal_apply m c _ h i) (fun n h acc i _ _ => stepVal_apply m c n h acc i)
    (t.val % 16) (by omega) h' y, ht]
  rfl

end Cert.KernelIdeal.Accum

end
-- ==== Proof.Whole.lean ====
/-
  The kernel's whole run, read as values.

  The array of partial sums (2 × 8 × 128) is written back twice: block p (the entries with first coordinate p)
  after the last point 16p + 15 of run p.  So every entry (p, a, b) ends holding

      partials (p, a, b) = 0 + Σ_{s < 16} total(16p + s) / 1024,

  the same number at all 1024 entries of block p.  The two blocks tile the array, so this is the whole array
  after the region.  The host lines after the region then sum the array from 0 and divide by n + ε, n the number of
  interior positions of the whole batch and ε the reference's own small constant, both as float literals the two
  programs share.
-/
import proofs.«115705_j82695300317218_1_alg».proof.Proof.Accum
import Idealize.ShloMosaic.Lib.Pipeline.Value
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The array of partial sums after the region. -/
def partials (c : Dev nD) : S2x8x128.Idx → EReal :=
  fun i => 0 + ∑ s ∈ Finset.range 16, Accum.total m c (16 * (i 0).val + s) * ((1 / 1024 : ℝ) : EReal)

/-- The output window's block index at point t is (t / 16, 0, 0): decided over the 32 points. -/
theorem out_index : ∀ t : Fin cfg0.N, win0_1.index t (0 : Fin 3) = t.val / 16 ∧ win0_1.index t (1 : Fin 3) = 0
    ∧ win0_1.index t (2 : Fin 3) = 0 :=
  (by decide +kernel : ∀ t : Fin grid0.N, _)

/-- What a write-back point writes is its block of `partials`. -/
theorem flushed_eq (c : Dev nD) (t : Fin cfg0.N) (hf : (cfg0.win 1).flush t = true) :
    (dats m 0 c).flushed 1 t = ((cfg0.win 1).blk t).view.read (Elt Ideal) (partials m c) := by
  have ht : t.val % 16 = 15 := (flush0_1 t).mp hf
  show (cfg0.win 1).cut (grid0.coords t) ((dats m 0 c).after 1 t) = _
  rw [after0_1]
  funext y
  obtain ⟨e0, e1, e2⟩ := out_index t
  show outsAt0 m c t.val t.isLt y = partials m c (((cfg0.win 1).blk t).view.emb y)
  rw [Accum.block_at_flush m c t ht y]
  unfold partials
  have hy : ((((cfg0.win 1).blk t).view.emb y) 0).val = t.val / 16 := by
    show win0_1.index t (0 : Fin 3) * 1 + 1 * (y 0).val = t.val / 16
    have : (y 0).val < 1 := (y 0).isLt
    omega
  rw [hy]

/-- An index of the array lies in point t's block iff each coordinate lies in the block's range on its axis. -/
theorem mem_blk (t : Fin cfg0.N) (i : S2x8x128.Idx) :
    i ∈ ((cfg0.win 1).blk t).view.set ↔ ∀ a : Fin 3, win0_1.index t a * S1x8x128.size a ≤ (i a).val
      ∧ (i a).val < win0_1.index t a * S1x8x128.size a + S1x8x128.size a := by
  show i ∈ ((View.whole main_v0).slice (win0_1.rect t)).set ↔ _
  rw [View.set_slice_whole, Rect.mem_set_unit]
  exact Iff.rfl

/-- Every entry (p, a, b) lies in the block written back at point 16p + 15. -/
theorem cover (i : S2x8x128.Idx) : ∃ t : Fin cfg0.N, (cfg0.win 1).flush t = true ∧ i ∈ ((cfg0.win 1).blk t).view.set := by
  have hi0 : (i 0).val < 2 := (i 0).isLt
  have hi1 : (i 1).val < 8 := (i 1).isLt
  have hi2 : (i 2).val < 128 := (i 2).isLt
  have hN : cfg0.N = 32 := N_0
  have hlt : 16 * (i 0).val + 15 < cfg0.N := by rw [hN]; omega
  refine ⟨⟨16 * (i 0).val + 15, hlt⟩, (flush0_1 _).mpr (by show (16 * (i 0).val + 15) % 16 = 15; omega), ?_⟩
  rw [mem_blk]
  obtain ⟨e0, e1, e2⟩ := out_index ⟨16 * (i 0).val + 15, hlt⟩
  have e0' : win0_1.index ⟨16 * (i 0).val + 15, hlt⟩ (0 : Fin 3) = (16 * (i 0).val + 15) / 16 := e0
  intro a
  match a with
  | ⟨0, _⟩ =>
    show win0_1.index ⟨16 * (i 0).val + 15, hlt⟩ (0 : Fin 3) * 1 ≤ (i 0).val
      ∧ (i 0).val < win0_1.index ⟨16 * (i 0).val + 15, hlt⟩ (0 : Fin 3) * 1 + 1
    omega
  | ⟨1, _⟩ =>
    show win0_1.index ⟨16 * (i 0).val + 15, hlt⟩ (1 : Fin 3) * 8 ≤ (i 1).val
      ∧ (i 1).val < win0_1.index ⟨16 * (i 0).val + 15, hlt⟩ (1 : Fin 3) * 8 + 8
    omega
  | ⟨2, _⟩ =>
    show win0_1.index ⟨16 * (i 0).val + 15, hlt⟩ (2 : Fin 3) * 128 ≤ (i 2).val
      ∧ (i 2).val < win0_1.index ⟨16 * (i 0).val + 15, hlt⟩ (2 : Fin 3) * 128 + 128
    omega

/-- The array of partial sums after the region. -/
theorem final (c : Dev nD) : (dats m 0 c).arrAt 1 cfg0.N = partials m c :=
  (dats m 0 c).arrAt_eq_of_cover 1 (partials m c) (flushed_eq m c) (cover)

/-- The host lines after the region, as one function of the array of partial sums: its sum from 0, divided by the
    sum of the two literals. -/
def tail (P : S2x8x128.Idx → EReal) : S_.Idx → EReal :=
  Host.divf (F := Ideal) (Host.reduceAdd (F := Ideal) (φ := .f32) P (constant (F := Ideal) S_ .f32 0x00000000#32) reducesTo_S2x8x128_S_d0_1_2 h_S_)
    (addf (F := Ideal) (constant (F := Ideal) S_ .f32 0x4C0F4040#32) (constant (F := Ideal) S_ .f32 0x322BCC77#32))

/-- The program's result after the lines that follow the region. -/
theorem result_eq (c : Dev nD) :
    Pipeline.afterTail₀ cfgs (dats m) 0 (V0 m) [hostOps1] c main_v3 = tail (partials m c) := by
  unfold Pipeline.afterTail₀
  show StableHlo.after hostOps1 _ (Proc.devRef .tc main_v3) = _
  after_results
  exact congrArg tail ((Pipeline.withArrays_arr spec0 launch0.win.arr_inj c _ _ 1).trans (final m c))

/-- The run, read: the result at the tail of the partial sums, the argument unchanged. -/
theorem run : θ_run defs (onTc (τ := τ) (main (F := Ideal))) ⟨m, fun _ => 0, ρ⟩ fun r => ∀ c : Dev nD,
      r.2.mem ((c.tc : Thread nD τ).loc main_v3) = tail (partials m c)
      ∧ r.2.mem ((c.tc : Thread nD τ).loc main_arg0) = m ((c.tc : Thread nD τ).loc main_arg0) :=
  (θ_run defs _ _).mono (fun r h c =>
      ⟨((h c).2 main_v3 (Pipeline.mem_restRefs_of main_v3 rfl (by decide))).trans (result_eq m c),
        ((h c).1 0).trans (((dats m 0 c).arrAt_in 0 rfl _).trans ((A_eq m c 0).trans (V_main_arg0 m c)))⟩)
    (run_main m ρ)

end Cert.KernelIdeal.Whole

end
-- ==== Proof.Stencil.lean ====
/-
  The gradient magnitude from the four neighbours of an interior position, on the extended reals:

      magOf e w s n = √( ((e − w)·κ)·((e − w)·κ) + ((s − n)·κ)·((s − n)·κ) + ε )

  with κ the float literal 0x4103CBB4 (0.5 / 0.0607 rounded to f32) and ε the literal 0x322BCC77 (1e-8 rounded to
  f32), both spelt by the kernel and by the reference with the same bits, so neither is ever evaluated.
  e, w are the values one column to the right and to the left on the middle row; s, n the values one row below and
  above on the middle column.
-/
import Idealize.ShloMosaic.PureOps.Ideal

noncomputable section

namespace Cert.Stencil

open Idealize.ShloMosaic

/-- The magnitude of the central-difference gradient, from the east, west, south and north neighbours. -/
def magOf (e w s n : EReal) : EReal :=
  Ideal.sqrt (((e - w) * Ideal.ofBits .f32 0x4103CBB4#32) * ((e - w) * Ideal.ofBits .f32 0x4103CBB4#32)
    + ((s - n) * Ideal.ofBits .f32 0x4103CBB4#32) * ((s - n) * Ideal.ofBits .f32 0x4103CBB4#32)
    + Ideal.ofBits .f32 0x322BCC77#32)

end Cert.Stencil

end
-- ==== Proof.RefRead.lean ====
/-
  The reference, read at an index.

  The reference slices the whole batch four times (east, west, south, north neighbours of every interior
  position), forms the magnitude `magOf` of the four slices position by position, sums all the magnitudes from 0
  and divides by n + ε.
-/
import proofs.«115705_j82695300317218_1_alg».proof.Proof.Gen.ReferenceIdeal.Read
import proofs.«115705_j82695300317218_1_alg».proof.Proof.Stencil

noncomputable section

open scoped BigOperators
open Idealize.ShloMosaic Idealize.ShloMosaic.TcCoe Idealize.SL.Sem

namespace Cert.ReferenceIdeal.RefRead

open Cert.ReferenceIdeal Cert.ReferenceIdeal.Read Cert.Stencil

/-- The reference's magnitude at interior position J is `magOf` of the argument at J's four neighbours. -/
theorem mag_apply (x : (⟨S64x1x768x768, .f32⟩ : BufTy).Contents (Elt Ideal)) (J : S64x1x766x766.Idx) :
    val_main_v16 (F := Ideal) x J
      = magOf (x (idx_main_v1 J)) (x (idx_main_v2 J)) (x (idx_main_v6 J)) (x (idx_main_v7 J)) := by
  rw [val_main_v16_apply, val_main_v15_apply, val_main_v13_apply, val_main_v11_apply, val_main_v12_apply,
    val_main_v5_apply, val_main_v10_apply, val_main_v3_apply, val_main_v8_apply, val_main_v1_apply, val_main_v2_apply,
    val_main_v6_apply, val_main_v7_apply, val_main_v4_apply, val_main_v9_apply, val_main_v14_apply, val_main_cst_apply,
    val_main_cst_0_apply, val_main_cst_1_apply]
  rfl

/-- The reference's sum of all the magnitudes, from 0. -/
theorem sum_apply (x : (⟨S64x1x768x768, .f32⟩ : BufTy).Contents (Elt Ideal)) (i : S_.Idx) :
    val_main_v17 (F := Ideal) x i = 0 + ∑ J : S64x1x766x766.Idx, val_main_v16 (F := Ideal) x J := by
  rw [val_main_v17_apply, val_main_cst_2_apply]
  exact congrArg (· + _) Ideal.ofBits_zero_f32

end Cert.ReferenceIdeal.RefRead

end
-- ==== Proof.Spread.lean ====
/-
  Spreading a total over 1024 equal shares and adding the shares up again.

  Over the extended reals multiplication does not distribute over addition in general, so the law
  "1024 copies of y · (1/1024) add up to y" is checked on the three kinds of extended real: a real number
  (ordinary arithmetic), +∞ and −∞ (a positive multiple of an infinity is that infinity, and a sum of copies
  of one infinity is that infinity).  Addition of extended reals is commutative and associative without any
  side condition, so sums may be regrouped freely; only this one law touches the product.
-/
import Mathlib.Data.EReal.Inv
import Mathlib.Algebra.BigOperators.Fin
import Mathlib.Algebra.BigOperators.Intervals

open scoped BigOperators

namespace Cert.Spread

/-- A positive number of copies of −∞ adds up to −∞. -/
theorem nsmul_bot : ∀ n : ℕ, (n + 1) • (⊥ : EReal) = ⊥
  | 0 => one_nsmul _
  | n + 1 => by rw [succ_nsmul, EReal.add_bot]

/-- A positive number of copies of +∞ adds up to +∞. -/
theorem nsmul_top : ∀ n : ℕ, (n + 1) • (⊤ : EReal) = ⊤
  | 0 => one_nsmul _
  | n + 1 => by rw [succ_nsmul, nsmul_top n, EReal.top_add_top]

/-- 1024 shares of y/1024 add up to y, for every extended real y. -/
theorem shares (y : EReal) : (1024 : ℕ) • (y * ((1 / 1024 : ℝ) : EReal)) = y := by
  induction y using EReal.rec with
  | bot => rw [EReal.bot_mul_coe_of_pos (by norm_num)]; exact nsmul_bot 1023
  | top => rw [EReal.top_mul_coe_of_pos (by norm_num)]; exact nsmul_top 1023
  | coe x =>
    rw [← EReal.coe_mul, ← EReal.coe_nsmul]
    congr 1
    rw [nsmul_eq_mul]; push_cast; ring

/-- A sum over 8 × 128 positions of one and the same value is 1024 copies of it. -/
theorem sum_block {M : Type*} [AddCommMonoid M] (z : M) : ∑ _a : Fin 8, ∑ _b : Fin 128, z = (1024 : ℕ) • z := by
  simp only [Finset.sum_const, Finset.card_univ, Fintype.card_fin, smul_smul]
  norm_num

/-- Two runs of sixteen consecutive points are the thirty-two points. -/
theorem sum_runs {M : Type*} [AddCommMonoid M] (f : ℕ → M) :
    ∑ p : Fin 2, ∑ s ∈ Finset.range 16, f (16 * p.val + s) = ∑ t : Fin 32, f t.val := by
  rw [Fin.sum_univ_two, ← Finset.sum_range (fun t => f t), show (32 : ℕ) = 16 + 16 from rfl, Finset.sum_range_add]
  simp

/-- THE LAW that joins the two sides.  If every entry of the 2 × 8 × 128 array is, for its run p, the sum over the
    run's sixteen points of that point's total times 1/1024 (started from 0), then the sum of all the entries is the
    sum of the thirty-two points' totals. -/
theorem spread_sum (B : ℕ → EReal) :
    ∑ p : Fin 2, ∑ _a : Fin 8, ∑ _b : Fin 128, (0 + ∑ s ∈ Finset.range 16, B (16 * p.val + s) * ((1 / 1024 : ℝ) : EReal))
      = ∑ t : Fin 32, B t.val := by
  rw [← sum_runs B]
  refine Finset.sum_congr rfl fun p _ => ?_
  rw [sum_block, zero_add, ← Finset.sum_nsmul]
  exact Finset.sum_congr rfl fun s _ => shares _

end Cert.Spread
-- ==== Proof.Bridge.lean ====
/-
  The two sides meet.

  * A block read.  The input block of grid point t is the pair of images 2t and 2t + 1 of the batch: entry
    (u, 0, h, w) of the block is entry (2t + u, 0, h, w) of the argument.  So the magnitude the kernel forms at
    position (u, 0, r, c) of point t's block is the reference's magnitude at (2t + u, 0, r, c): the same `magOf` of
    the same four entries of the argument.

  * The positions.  (t, (u, 0, r, c)) ↦ (2t + u, 0, r, c) is a bijection from 32 points × the block's interior
    positions onto the interior positions of the whole batch, so the thirty-two block totals add up to the
    reference's one total.

  * The shares.  The array of partial sums holds, at each of its 2 × 8 × 128 entries, the sixteen shares of its run;
    its total is the sum of the thirty-two block totals (Spread).

  Hence the kernel's result, the total of the partial sums from 0 divided by n + ε, is the reference's result, the
  total of all magnitudes from 0 divided by the same n + ε.
-/
import proofs.«115705_j82695300317218_1_alg».proof.Proof.Whole
import proofs.«115705_j82695300317218_1_alg».proof.Proof.RefRead
import proofs.«115705_j82695300317218_1_alg».proof.Proof.Spread

noncomputable section

open scoped BigOperators
open Idealize.ShloMosaic Idealize.ShloMosaic.TcCoe Idealize.SL.Sem Idealize.ShloMosaic.LibTotals

namespace Cert.KernelIdeal.Bridge

open Cert.KernelIdeal Cert.KernelIdeal.Gen Cert.Stencil

variable (m : (ℓ : Loc nD τ sig) → Buf (Elt Ideal) ℓ)

/-- The input window's block index at point t is (t, 0, 0, 0): decided over the 32 points. -/
theorem in_index : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- Entry k of point t's input block is the argument's entry with 2t added to the batch coordinate. -/
theorem iblk_apply (c : Dev nD) (t : Fin cfg0.N) (k : S2x1x768x768.Idx) (K : S64x1x768x768.Idx)
    (h0 : (K 0).val = 2 * t.val + (k 0).val) (h1 : (K 1).val = (k 1).val) (h2 : (K 2).val = (k 2).val)
    (h3 : (K 3).val = (k 3).val) :
    (iblk m c 0 t : Vec Ideal S2x1x768x768 .f32) k = m ((c.tc : Thread nD τ).loc main_arg0) K := by
  obtain ⟨e0, e1, e2, e3⟩ := in_index t
  unfold iblk
  rw [View.read_apply]
  show V m c main_arg0 (((cfg0.win 0).blk t).view.emb k) = _
  rw [V_main_arg0]
  refine congrArg _ (funext fun a => Fin.ext ?_)
  match a with
  | ⟨0, _⟩ => show win0_0.index t (0 : Fin 4) * 2 + 1 * (k 0).val = (K 0).val; omega
  | ⟨1, _⟩ => show win0_0.index t (1 : Fin 4) * 1 + 1 * (k 1).val = (K 1).val; omega
  | ⟨2, _⟩ => show win0_0.index t (2 : Fin 4) * 768 + 1 * (k 2).val = (K 2).val; omega
  | ⟨3, _⟩ => show win0_0.index t (3 : Fin 4) * 768 + 1 * (k 3).val = (K 3).val; omega

/-- The kernel's magnitude at a position of a block that reads the argument T pairs of images along is the
    reference's `magOf` at the position with 2T added to the batch coordinate. -/
theorem mag_of_block (x0 : Vec Ideal S2x1x768x768 .f32)
    (x : (⟨Cert.ReferenceIdeal.S64x1x768x768, .f32⟩ : BufTy).Contents (Elt Ideal)) (T : ℕ)
    (hx : ∀ (k : S2x1x768x768.Idx) (K : Cert.ReferenceIdeal.S64x1x768x768.Idx), (K 0).val = 2 * T + (k 0).val →
      (K 1).val = (k 1).val → (K 2).val = (k 2).val → (K 3).val = (k 3).val → x0 k = x K)
    (j : S2x1x766x766.Idx) (J : Cert.ReferenceIdeal.S64x1x766x766.Idx)
    (hJ0 : (J 0).val = 2 * T + (j 0).val) (hJ1 : (J 1).val = (j 1).val) (hJ2 : (J 2).val = (j 2).val)
    (hJ3 : (J 3).val = (j 3).val) :
    Payload.mag x0 j = magOf (x (Cert.ReferenceIdeal.Read.idx_main_v1 J)) (x (Cert.ReferenceIdeal.Read.idx_main_v2 J))
      (x (Cert.ReferenceIdeal.Read.idx_main_v6 J)) (x (Cert.ReferenceIdeal.Read.idx_main_v7 J)) := by
  have e1 : extractStridedSlice S2x1x766x766 ![0, 0, 1, 2] x0 slices_S2x1x768x768_o0_0_1_2_S2x1x766x766 j
      = x (Cert.ReferenceIdeal.Read.idx_main_v1 J) := by
    unfold extractStridedSlice
    exact hx _ _ (by show (J 0).val = 2 * T + (0 + (j 0).val); omega) (by show (J 1).val = 0 + (j 1).val; omega)
      (by show 1 + (J 2).val = 1 + (j 2).val; omega) (by show 2 + (J 3).val = 2 + (j 3).val; omega)
  have e2 : extractStridedSlice S2x1x766x766 ![0, 0, 1, 0] x0 slices_S2x1x768x768_o0_0_1_0_S2x1x766x766 j
      = x (Cert.ReferenceIdeal.Read.idx_main_v2 J) := by
    unfold extractStridedSlice
    exact hx _ _ (by show (J 0).val = 2 * T + (0 + (j 0).val); omega) (by show (J 1).val = 0 + (j 1).val; omega)
      (by show 1 + (J 2).val = 1 + (j 2).val; omega) (by show (J 3).val = 0 + (j 3).val; omega)
  have e3 : extractStridedSlice S2x1x766x766 ![0, 0, 2, 1] x0 slices_S2x1x768x768_o0_0_2_1_S2x1x766x766 j
      = x (Cert.ReferenceIdeal.Read.idx_main_v6 J) := by
    unfold extractStridedSlice
    exact hx _ _ (by show (J 0).val = 2 * T + (0 + (j 0).val); omega) (by show (J 1).val = 0 + (j 1).val; omega)
      (by show 2 + (J 2).val = 2 + (j 2).val; omega) (by show 1 + (J 3).val = 1 + (j 3).val; omega)
  have e4 : extractStridedSlice S2x1x766x766 ![0, 0, 0, 1] x0 slices_S2x1x768x768_o0_0_0_1_S2x1x766x766 j
      = x (Cert.ReferenceIdeal.Read.idx_main_v7 J) := by
    unfold extractStridedSlice
    exact hx _ _ (by show (J 0).val = 2 * T + (0 + (j 0).val); omega) (by show (J 1).val = 0 + (j 1).val; omega)
      (by show (J 2).val = 0 + (j 2).val; omega) (by show 1 + (J 3).val = 1 + (j 3).val; omega)
  show magOf (extractStridedSlice S2x1x766x766 ![0, 0, 1, 2] x0 slices_S2x1x768x768_o0_0_1_2_S2x1x766x766 j)
    (extractStridedSlice S2x1x766x766 ![0, 0, 1, 0] x0 slices_S2x1x768x768_o0_0_1_0_S2x1x766x766 j)
    (extractStridedSlice S2x1x766x766 ![0, 0, 2, 1] x0 slices_S2x1x768x768_o0_0_2_1_S2x1x766x766 j)
    (extractStridedSlice S2x1x766x766 ![0, 0, 0, 1] x0 slices_S2x1x768x768_o0_0_0_1_S2x1x766x766 j) = _
  rw [e1, e2, e3, e4]

/-- A point and a position of its block, as a position of the whole batch. -/
def join (p : Fin 32 × S2x1x766x766.Idx) : Cert.ReferenceIdeal.S64x1x766x766.Idx := fun a => match a with
  | ⟨0, _⟩ => ⟨2 * p.1.val + (p.2 0).val, by
      have h1 := p.1.isLt; have h2 : (p.2 0).val < 2 := (p.2 0).isLt; show 2 * p.1.val + (p.2 0).val < 64; omega⟩
  | ⟨1, _⟩ => ⟨(p.2 1).val, (p.2 1).isLt⟩
  | ⟨2, _⟩ => ⟨(p.2 2).val, (p.2 2).isLt⟩
  | ⟨3, _⟩ => ⟨(p.2 3).val, (p.2 3).isLt⟩

/-- A position of the whole batch, as the point whose block holds it and the position inside the block. -/
def split (J : Cert.ReferenceIdeal.S64x1x766x766.Idx) : Fin 32 × S2x1x766x766.Idx :=
  (⟨(J 0).val / 2, by have h : (J 0).val < 64 := (J 0).isLt; omega⟩, fun a => match a with
    | ⟨0, _⟩ => ⟨(J 0).val % 2, by show (J 0).val % 2 < 2; omega⟩
    | ⟨1, _⟩ => ⟨(J 1).val, (J 1).isLt⟩
    | ⟨2, _⟩ => ⟨(J 2).val, (J 2).isLt⟩
    | ⟨3, _⟩ => ⟨(J 3).val, (J 3).isLt⟩)

/-- The two are inverse to each other. -/
def positions : Fin 32 × S2x1x766x766.Idx ≃ Cert.ReferenceIdeal.S64x1x766x766.Idx where
  toFun := join
  invFun := split
  left_inv p := by
    have h2 : (p.2 0).val < 2 := (p.2 0).isLt
    refine Prod.ext (Fin.ext ?_) (funext fun a => ?_)
    · show (2 * p.1.val + (p.2 0).val) / 2 = p.1.val; omega
    · match a with
      | ⟨0, _⟩ => exact Fin.ext (by show (2 * p.1.val + (p.2 0).val) % 2 = (p.2 0).val; omega)
      | ⟨1, _⟩ => rfl
      | ⟨2, _⟩ => rfl
      | ⟨3, _⟩ => rfl
  right_inv J := funext fun a => by
    match a with
    | ⟨0, _⟩ => exact Fin.ext (by show 2 * ((J 0).val / 2) + (J 0).val % 2 = (J 0).val; omega)
    | ⟨1, _⟩ => rfl
    | ⟨2, _⟩ => rfl
    | ⟨3, _⟩ => rfl

/-- The thirty-two block totals add up to the reference's total of all magnitudes. -/
theorem totals_eq (c : Dev nD) :
    ∑ t : Fin 32, Accum.total m c t.val
      = ∑ J : Cert.ReferenceIdeal.S64x1x766x766.Idx,
          Cert.ReferenceIdeal.Read.val_main_v16 (F := Ideal) (m ((c.tc : Thread nD τ).loc main_arg0)) J := by
  have hN : cfg0.N = 32 := N_0
  rw [← Equiv.sum_comp positions, Fintype.sum_prod_type]
  refine Finset.sum_congr rfl fun t _ => ?_
  have ht : t.val < cfg0.N := by rw [hN]; exact t.isLt
  rw [Accum.total_of_lt m c t.val ht]
  refine Finset.sum_congr rfl fun j _ => ?_
  rw [Cert.ReferenceIdeal.RefRead.mag_apply]
  exact mag_of_block (iblk m c 0 ⟨t.val, ht⟩) (m ((c.tc : Thread nD τ).loc main_arg0)) t.val
    (fun k K h0 h1 h2 h3 => iblk_apply m c ⟨t.val, ht⟩ k K h0 h1 h2 h3) j (positions (t, j)) rfl rfl rfl rfl

/-- The total of the array of partial sums is the sum of the thirty-two block totals. -/
theorem partials_total (c : Dev nD) :
    ∑ i : S2x8x128.Idx, Whole.partials m c i = ∑ t : Fin 32, Accum.total m c t.val := by
  rw [sum_idx3]
  exact Cert.Spread.spread_sum (Accum.total m c)

/-- THE RESULT: the kernel's tail of its partial sums is the reference's result. -/
theorem result_eq (c : Dev nD) :
    Whole.tail (Whole.partials m c)
      = Cert.ReferenceIdeal.Read.val_main_v19 (F := Ideal) (m ((c.tc : Thread nD τ).loc main_arg0)) := by
  funext i
  have hk : Host.reduceAdd (F := Ideal) (φ := .f32) (Whole.partials m c) (constant (F := Ideal) S_ .f32 0x00000000#32)
      reducesTo_S2x8x128_S_d0_1_2 h_S_ i = 0 + ∑ k : S2x8x128.Idx, Whole.partials m c k := by
    simp only [Host.reduceAdd, Ideal.hostReduceAdd_def]
    refine (Ideal.hostReduceAdd_total reducesTo_S2x8x128_S_d0_1_2 (fun b => b.elim0) _ _ i).trans ?_
    exact congrArg (· + _) Ideal.ofBits_zero_f32
  rw [Cert.ReferenceIdeal.Read.val_main_v19_apply, Cert.ReferenceIdeal.RefRead.sum_apply, ← totals_eq m c,
    ← partials_total m c, ← hk]
  rfl

end Cert.KernelIdeal.Bridge

end
-- ==== Proof.lean ====
/-
  Mean gradient magnitude: a blocked, lane-spread accumulation against one whole sum.

  For an argument φ of shape 64 × 1 × 768 × 768 both programs compute, at every interior position (b, 0, r, c)
  (0 ≤ r, c < 766), the magnitude of the central-difference gradient

      mag = √( ((φ[b,0,r+1,c+2] − φ[b,0,r+1,c])·κ)² + ((φ[b,0,r+2,c+1] − φ[b,0,r,c+1])·κ)² + ε ),

  add all the magnitudes up, and divide by n + ε, where n = 64·766·766 and κ, ε, n are float literals the two
  programs spell with the same bits.

  The reference does it in one sum over the whole batch.  The kernel walks a grid of 2 × 16 points: point
  t = 16p + r holds the images 2t and 2t + 1, adds their magnitudes to one number, multiplies it by 2⁻¹⁰ and adds the
  product to each of the 8 × 128 = 1024 entries of the output block of half p (reset at r = 0, written back after
  r = 15); the host then sums the 2 × 8 × 128 entries.  Over the extended reals

      Σ_{p,a,b} (0 + Σ_r total(16p + r)·2⁻¹⁰) = Σ_p 1024·(Σ_r total(16p + r)·2⁻¹⁰) = Σ_t total(t) = Σ_{all positions} mag,

  the middle step because 1024 copies of y·2⁻¹⁰ add up to y for every extended real y (a real, +∞ or −∞), the others
  because addition of extended reals is commutative and associative with no side condition.  No finiteness of the
  argument is used: the claim's precondition is not opened.

  The three frames are the generated ones (the reference's is its generated run with the result dropped); the ideal
  pass rewrote nothing, so the idealization claim is trivial.
-/
import proofs.«115705_j82695300317218_1_alg».proof.Defs
import proofs.«115705_j82695300317218_1_alg».proof.Proof.Gen.Kernel
import proofs.«115705_j82695300317218_1_alg».proof.Proof.Gen.Kernel.Skeleton
import proofs.«115705_j82695300317218_1_alg».proof.Proof.Gen.Kernel.Launch
import proofs.«115705_j82695300317218_1_alg».proof.Proof.Gen.Kernel.Points
import proofs.«115705_j82695300317218_1_alg».proof.Proof.Gen.Kernel.Frame
import proofs.«115705_j82695300317218_1_alg».proof.Proof.Gen.KernelIdeal
import proofs.«115705_j82695300317218_1_alg».proof.Proof.Gen.KernelIdeal.Skeleton
import proofs.«115705_j82695300317218_1_alg».proof.Proof.Gen.KernelIdeal.Launch
import proofs.«115705_j82695300317218_1_alg».proof.Proof.Gen.KernelIdeal.Points
import proofs.«115705_j82695300317218_1_alg».proof.Proof.Gen.KernelIdeal.Frame
import proofs.«115705_j82695300317218_1_alg».proof.Proof.Gen.ReferenceIdeal
import proofs.«115705_j82695300317218_1_alg».proof.Proof.Gen.Pre_finite_inputs
import proofs.«115705_j82695300317218_1_alg».proof.Proof.Gen.ReferenceIdeal.Run
import proofs.«115705_j82695300317218_1_alg».proof.Proof.Gen.ReferenceIdeal.Read
import proofs.«115705_j82695300317218_1_alg».proof.Proof.Bridge
import Idealize.ShloMosaic.Adequacy
import Idealize.ShloMosaic.Init

noncomputable section

namespace Cert.Proof

open Idealize.ShloMosaic Idealize.SL.Sem

/-- The word-level kernel runs and keeps its argument. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its argument: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- At the ideal instance the kernel's result — the total of its partial sums from 0 over n + ε — and the
    reference's — the total of all magnitudes from 0 over n + ε — are one extended real, for arguments that agree. -/
theorem algebraic : Cert.algebraic_KernelIdeal_ReferenceIdeal := by
  intro m ρ m' ρ' _ hagree
  refine ⟨fun c => Cert.KernelIdeal.Whole.tail (Cert.KernelIdeal.Whole.partials m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, hagree c]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
